-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  reducesTo_S_S_d : S_.ReducesTo [] S_

variable [Facts]

def fn_part1 {F : FTy → Type} [FloatOps F] (main_arg4 : FVec F S_ .f32) (main_v12 : IVec S_ 1) (main_v15 : IVec S_ 1) : IVec S_ 1 :=
  let main_v16 : IVec S_ 1 := andi main_v12 main_v15
  let main_v17 : FVec F S_ .f32 := Host.absf main_arg4
  let main_cst_6 : FVec F S_ .f32 := constant S_ .f32 0x7F800000#32
  let main_v18 : IVec S_ 1 := cmpf .olt main_v17 main_cst_6
  let main_c_7 : IVec S_ 1 := constantI S_ 1 1#1
  let main_v19 : IVec S_ 1 := (fun x v => Host.reduce IntOp.andi x v reducesTo_S_S_d h_S_) main_v18 main_c_7
  let main_v20 : IVec S_ 1 := andi main_v16 main_v19
  main_v20

def fn {F : FTy → Type} [FloatOps F] (main_arg0 : FVec F S32768x4096 .f32) (main_arg1 : FVec F S32768x4096 .f32) (main_arg2 : FVec F S_ .f32) (main_arg3 : FVec F S_ .f32) (main_arg4 : FVec F S_ .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S32768x4096 .f32 := Host.absf main_arg1
  let main_cst_0 : FVec F S_ .f32 := constant S_ .f32 0x7F800000#32
  let main_v5 : FVec F S32768x4096 .f32 := broadcastInDim S32768x4096 ![] bcast_S_S32768x4096 main_cst_0
  let main_v6 : IVec S32768x4096 1 := cmpf .olt main_v4 main_v5
  let main_c_1 : IVec S_ 1 := constantI S_ 1 1#1
  let main_v7 : IVec S_ 1 := (fun x v => Host.reduce IntOp.andi x v reducesTo_S32768x4096_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S_ .f32 := Host.absf main_arg3
  let main_cst_4 : FVec F S_ .f32 := constant S_ .f32 0x7F800000#32
  let main_v14 : IVec S_ 1 := cmpf .olt main_v13 main_cst_4
  let main_c_5 : IVec S_ 1 := constantI S_ 1 1#1
  let main_v15 : IVec S_ 1 := (fun x v => Host.reduce IntOp.andi x v reducesTo_S_S_d h_S_) main_v14 main_c_5
  fn_part1 (F := F) main_arg4 main_v12 main_v15
-- ==== Kernel.lean ====
abbrev S32768x4096 : Shape := ⟨2, ![32768, 4096]⟩
abbrev S_ : Shape := ⟨0, ![]⟩
abbrev S32768 : Shape := ⟨1, ![32768]⟩
abbrev S512x4096 : Shape := ⟨2, ![512, 4096]⟩
abbrev S512 : Shape := ⟨1, ![512]⟩
abbrev S512x1 : Shape := ⟨2, ![512, 1]⟩
abbrev S512x1024 : Shape := ⟨2, ![512, 1024]⟩

abbrev nBuf : Space → Nat
  | .hbm => 51
  | .vmem => 6
  | .smem => 0
  | _ => 0

abbrev bufTy : (tb : Table) → Fin (tcTables nBuf tb) → BufTy
  | .hbm, ⟨0, _⟩ => ⟨S32768x4096, .f32⟩
  | .hbm, ⟨1, _⟩ => ⟨S32768x4096, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S32768, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S32768, .f32⟩
  | .hbm, ⟨11, _⟩ => ⟨S32768, .f32⟩
  | .hbm, ⟨12, _⟩ => ⟨S32768, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S32768, .f32⟩
  | .hbm, ⟨43, _⟩ => ⟨S32768, .f32⟩
  | .hbm, ⟨44, _⟩ => ⟨S_, .f32⟩
  | .hbm, ⟨45, _⟩ => ⟨S_, .f32⟩
  | .hbm, ⟨46, _⟩ => ⟨S32768, .f32⟩
  | .hbm, ⟨47, _⟩ => ⟨S32768, .f32⟩
  | .hbm, ⟨48, _⟩ => ⟨S_, .f32⟩
  | .hbm, ⟨49, _⟩ => ⟨S32768, .f32⟩
  | .hbm, ⟨50, _⟩ => ⟨S32768, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S512, .f32⟩
  | .local _ .vmem, ⟨5, _⟩ => ⟨S512, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩
abbrev main_cst_9 : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_10 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_11 : Ref sig .tc := ⟨.hbm, 48, rfl⟩
abbrev main_v30 : Ref sig .tc := ⟨.hbm, 49, rfl⟩
abbrev main_v31 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def k0_mult1 : BitVec 32 :=
  let c0_i32 : BitVec 32 := 0#32
  let c1024_i32 : BitVec 32 := 1024#32
  let v1 : BitVec 32 := Scalar.muli c0_i32 c1024_i32
  v1
def k0_off1 (c0_i32 : BitVec 32) : Fin 2 → Nat :=
  let c0 : Index := 0#32
  let c1024_i32 : BitVec 32 := 1024#32
  let v1 : BitVec 32 := Scalar.muli c0_i32 c1024_i32
  let v2 : BitVec 32 := v1
  let v3 : Index := Scalar.indexCast v2
  ![0, v3.toNat]
def k0_mult2 : BitVec 32 :=
  let c1_i32 : BitVec 32 := 1#32
  let c1024_i32_2 : BitVec 32 := 1024#32
  let v12 : BitVec 32 := Scalar.muli c1_i32 c1024_i32_2
  v12
def k0_mult3 : BitVec 32 :=
  let c2_i32 : BitVec 32 := 2#32
  let c1024_i32_6 : BitVec 32 := 1024#32
  let v23 : BitVec 32 := Scalar.muli c2_i32 c1024_i32_6
  v23
def k0_mult4 : BitVec 32 :=
  let c3_i32 : BitVec 32 := 3#32
  let c1024_i32_10 : BitVec 32 := 1024#32
  let v34 : BitVec 32 := Scalar.muli c3_i32 c1024_i32_10
  v34
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  h_S512x1024 : 0 < S512x1024.numel
  reduces_S512x1024_S512 : S512x1024.Reduces [1] S512
  shapeCasts_S512_S512x1 : S512.ShapeCasts S512x1
  shapeCasts_S512x1_S512 : S512x1.ShapeCasts S512
  inb_S512_S512_0 : ∀ a, (![0] : Fin 1 → Nat) a + S512.size a ≤ S512.size a
  h_S512 : 0 < S512.numel
  reducesTo_S32768_S_d0 : S32768.ReducesTo [0] S_
  h_S_ : 0 < S_.numel
  bcast_S_S32768 : S_.BroadcastsInDim S32768 (![] : Fin 0 → Fin S32768.rank)
  hrank0 : 0 < grid0.rank
  k0_mult1_dvd : 1024 ∣ k0_mult1.toNat
  k0_off1_inb : ∀ (r : Fin 4), ∀ a, (k0_off1 (BitVec.ofNat 32 r.val)) a + S512x1024.size a ≤ S512x4096.size a
  k0_mult2_dvd : 1024 ∣ k0_mult2.toNat
  k0_mult3_dvd : 1024 ∣ k0_mult3.toNat
  k0_mult4_dvd : 1024 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S32768x4096.size a
  hwx0_0 : ∀ i : grid0.Coords, EltTy.bits .f32 = 32 ∨ (Rect.block (s := S32768x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S32768x4096.size a
  hwx0_1 : ∀ i : grid0.Coords, EltTy.bits .f32 = 32 ∨ (Rect.block (s := S32768x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S32768.size a
  hwx0_2 : ∀ i : grid0.Coords, EltTy.bits .f32 = 32 ∨ (Rect.block (s := S32768) S512.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S_ : Shape := ⟨0, ![]⟩
abbrev S32768 : Shape := ⟨1, ![32768]⟩

abbrev nBuf : Space → Nat
  | .hbm => 57
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S32768x4096, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S32768x4096, .f32⟩
  | .hbm, ⟨6, _⟩ => ⟨S32768x4096, .f32⟩
  | .hbm, ⟨7, _⟩ => ⟨S_, .f32⟩
  | .hbm, ⟨8, _⟩ => ⟨S32768, .f32⟩
  | .hbm, ⟨9, _⟩ => ⟨S_, .f32⟩
  | .hbm, ⟨10, _⟩ => ⟨S32768, .f32⟩
  | .hbm, ⟨11, _⟩ => ⟨S32768, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S32768, .f32⟩
  | .hbm, ⟨17, _⟩ => ⟨S32768, .f32⟩
  | .hbm, ⟨18, _⟩ => ⟨S32768, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .i1⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S32768, .f32⟩
  | .hbm, ⟨49, _⟩ => ⟨S32768, .f32⟩
  | .hbm, ⟨50, _⟩ => ⟨S_, .f32⟩
  | .hbm, ⟨51, _⟩ => ⟨S_, .f32⟩
  | .hbm, ⟨52, _⟩ => ⟨S32768, .f32⟩
  | .hbm, ⟨53, _⟩ => ⟨S32768, .f32⟩
  | .hbm, ⟨54, _⟩ => ⟨S_, .f32⟩
  | .hbm, ⟨55, _⟩ => ⟨S32768, .f32⟩
  | .hbm, ⟨56, _⟩ => ⟨S32768, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩
abbrev main_v24 : Ref sig .tc := ⟨.hbm, 39, rfl⟩
abbrev main_cst_9 : Ref sig .tc := ⟨.hbm, 40, rfl⟩
abbrev main_v25 : Ref sig .tc := ⟨.hbm, 41, rfl⟩
abbrev main_v26 : Ref sig .tc := ⟨.hbm, 42, rfl⟩
abbrev main_cst_10 : Ref sig .tc := ⟨.hbm, 43, rfl⟩
abbrev main_v27 : Ref sig .tc := ⟨.hbm, 44, rfl⟩
abbrev main_cst_11 : Ref sig .tc := ⟨.hbm, 45, rfl⟩
abbrev main_call0_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_12 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_13 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]

class Facts₀ : Prop where
  reducesTo_S32768x4096_S32768_d1 : S32768x4096.ReducesTo [1] S32768
  h_S_ : 0 < S_.numel
  bcast_S_S32768 : S_.BroadcastsInDim S32768 (![] : Fin 0 → Fin S32768.rank)
  reducesTo_S32768_S_d0 : S32768.ReducesTo [0] S_

variable [Facts₀]

class Facts : Prop extends Facts₀ where

variable [Facts]
-- ==== Proof.KernelPiece.lean ====
/-
  What the kernel's body leaves in its output block, as a value: the body's arithmetic applied to eight loads.

  The body reads, from each of its two input blocks (512 rows of 4096), the four blocks of 1024 columns starting at
  columns 0, 1024, 2048 and 3072, and stores ONE vector of 512 entries over the whole output block. So what it
  leaves is that vector: the payload of the first three pairs of loads (the partial sums) fed, with the fourth pair,
  to the final payload. The output block's earlier contents, which the body also loads, do not enter.
-/
import proofs.«175330_j53781580480581_2_alg».proof.Proof.Gen.KernelIdeal.Frame
import Idealize.ShloMosaic.Lib.Pipeline.Value
import Idealize.ShloMosaic.Lib.Tactic

set_option maxRecDepth 16384

noncomputable section

namespace Cert.KernelPiece

open Idealize.ShloMosaic Idealize.ShloMosaic.TcCoe Idealize.SL.Sem
open Cert.KernelIdeal Cert.KernelIdeal.Gen

variable {F : FTy → Type} [FloatOps F]

theorem zero1 : (![0] : Fin 1 → Nat) = fun _ => 0 := funext fun a => by fin_cases a <;> rfl

/-- The 1024 columns from column `c`, every row, of a block of 512 rows of 4096. -/
abbrev cols (c : ℕ) (inb : ∀ d, (![0, c] : Fin 2 → ℕ) d + (![512, 1024] : Fin 2 → ℕ) d ≤ S512x4096.size d) : Rect S512x4096 :=
  Rect.unit (s := S512x4096) ![0, c] ![512, 1024] inb

/-- The body's result on input blocks `x0`, `x1`: its payloads over the eight loads. -/
theorem out_eq (c : Dev nD) (i : grid0.Coords) (a1 : Memref sig .tc .vmem S512x4096 .f32) (h1 : a1.IsWhole)
    (a2 : Memref sig .tc .vmem S512x4096 .f32) (h2 : a2.IsWhole) (a3 : Memref sig .tc .vmem S512 .f32) (h3 : a3.IsWhole)
    (x0 x1 : Vec F S512x4096 .f32) (p0 p1 p2 p3) :
    out0_A_2 c i a1 h1 a2 h2 a3 h3 x0 x1
      = k0_pay1 (k0_pay2 (View.ld x0 (cols 0 p0)) (View.ld x1 (cols 0 p0)) (View.ld x0 (cols 1024 p1)) (View.ld x1 (cols 1024 p1))
            (View.ld x0 (cols 2048 p2)) (View.ld x1 (cols 2048 p2)))
          (View.ld x0 (cols 3072 p3)) (View.ld x1 (cols 3072 p3)) := by
  unfold out0_A_2
  rw [View.read_writes_eq_canon _ _ _ (cover0_A_2 c i a1 h1 a2 h2 a3 h3 x0 x1)]
  unfold kernelRun0_A
  dsimp only
  sl_unfold_words
  rw [View.canon_unit_zero zero1]
  simp only [View.readAt_eq_ld, h1.read_unread, h2.read_unread]

end Cert.KernelPiece

end
-- ==== Proof.LibFinSplit.lean ====
/-
  A finite sum over an initial segment of the naturals, cut at a point.

  For any commutative additive monoid, the sum of `f` over `Fin N` is the sum over the first `n` indices plus
  the sum over the remaining `m`, whenever `n + m = N`; the second part is indexed from zero and reads `f` at
  `n + k`. Nothing here depends on a program: it is a statement about `Fin` and `Finset.sum` only.
-/
import Mathlib.Algebra.BigOperators.Fin

namespace Cert.Lib.FinSplit

open Finset

/-- The sum over `Fin N` is the sum over the first `n` indices plus the sum over the last `m`, for `n + m = N`:
    an index below the cut is itself, an index `k` of the second part is `n + k`. -/
theorem sum_fin_split {M : Type*} [AddCommMonoid M] {N : ℕ} (n m : ℕ) (h : n + m = N) (f : Fin N → M) :
    ∑ k : Fin N, f k
      = ∑ k : Fin n, f ⟨k.val, by have := k.isLt; omega⟩ + ∑ k : Fin m, f ⟨n + k.val, by have := k.isLt; omega⟩ := by
  subst h
  exact Fin.sum_univ_add f

/-- The same cut made three times: a sum over `Fin N` with `N = n + n + n + n` is the sum of its four consecutive
    blocks of `n` indices, block `b` reading `f` at `b * n + k` (written out: `k`, `n + k`, `n + n + k`, `n + n + n + k`). -/
theorem sum_fin_four_blocks {M : Type*} [AddCommMonoid M] {N : ℕ} (n : ℕ) (h : n + n + n + n = N) (f : Fin N → M) :
    ∑ k : Fin N, f k
      = ∑ k : Fin n, f ⟨k.val, by have := k.isLt; omega⟩
        + ∑ k : Fin n, f ⟨n + k.val, by have := k.isLt; omega⟩
        + ∑ k : Fin n, f ⟨n + n + k.val, by have := k.isLt; omega⟩
        + ∑ k : Fin n, f ⟨n + n + n + k.val, by have := k.isLt; omega⟩ := by
  rw [sum_fin_split (n + n + n) n h f, sum_fin_split (n + n) n rfl (fun k : Fin (n + n + n) => f ⟨k.val, by have := k.isLt; omega⟩),
    sum_fin_split n n rfl (fun k : Fin (n + n) => f ⟨k.val, by have := k.isLt; omega⟩)]

end Cert.Lib.FinSplit
-- ==== Proof.RowMeanSq.lean ====
/-
  The mathematics both programs share for one row: the mean of the squared differences of two rows of 4096 entries.

  Over the extended reals, for arrays `a` and `b` of 32768 rows and 4096 columns, row `r` gives
      ( z + ∑ₖ (a r k − b r k)·(a r k − b r k) ) / 4096,
  where `z` is the value of the all-zero f32 word (the sum's initial value, kept as the word on both sides) and 4096 is
  the value of the f32 word 0x45800000 (kept as the word too: the same word divides on both sides, so it is never
  evaluated). One program adds the 4096 terms in one sum; the other adds four consecutive blocks of 1024 terms,
  one after the other, onto `z`. Addition on the extended reals is associative and commutative, so the two agree with
  no finiteness assumption: `chunked_eq`.
-/
import Idealize.ShloMosaic.PureOps.Ideal
import Idealize.ShloMosaic.PureOps.Ideal.Laws
import Idealize.ShloMosaic.Lib.ValueIdx
import proofs.«175330_j53781580480581_2_alg».proof.Proof.LibFinSplit

noncomputable section

namespace Cert.RowMeanSq

open Idealize.ShloMosaic Idealize.ShloMosaic.ValueIdx

/-- The arrays' shape (32768 rows of 4096), and the shape of one value per row. -/
abbrev Full : Shape := ⟨2, ![32768, 4096]⟩
abbrev Rows : Shape := ⟨1, ![32768]⟩

/-- The squared difference of the two arrays at row `r`, column `k`. -/
def sqDiff (a b : Full.Idx → EReal) (r : Fin 32768) (k : Fin 4096) : EReal :=
  (a (ix2 r k) - b (ix2 r k)) * (a (ix2 r k) - b (ix2 r k))

/-- Row `r`'s value: the zero word's value plus the 4096 squared differences, divided by the word 4096.0. -/
def rowAt (a b : Full.Idx → EReal) (r : Fin 32768) : EReal :=
  Ideal.div (Ideal.ofBits .f32 0x00000000#32 + ∑ k : Fin 4096, sqDiff a b r k) (Ideal.ofBits .f32 0x45800000#32)

/-- THE SPECIFICATION: one value per row, as a function of the two argument arrays. -/
def rowMeanSq (a b : Full.Idx → EReal) : Rows.Idx → EReal := fun i => rowAt a b (i 0)

theorem rowMeanSq_apply (a b : Full.Idx → EReal) (r : Fin 32768) : rowMeanSq a b (ix1 r) = rowAt a b r := rfl

/-- Column `k` of block `q` (blocks of 1024 columns, `q` = 0, 1, 2, 3) as a column of the row. -/
def col (q : Fin 4) (k : Fin 1024) : Fin 4096 := ⟨1024 * q.val + k.val, by have := q.isLt; have := k.isLt; omega⟩

/-- The regrouping law: adding the four blocks of 1024 terms one after the other onto `z` is adding all 4096 terms
    onto `z` — associativity of addition and the split of a finite sum into consecutive blocks. -/
theorem chunked_eq {M : Type*} [AddCommMonoid M] (z : M) (f : Fin 4096 → M) :
    z + ∑ k : Fin 1024, f (col 0 k) + ∑ k : Fin 1024, f (col 1 k) + ∑ k : Fin 1024, f (col 2 k) + ∑ k : Fin 1024, f (col 3 k)
      = z + ∑ k : Fin 4096, f k := by
  rw [Cert.Lib.FinSplit.sum_fin_four_blocks 1024 rfl f]
  simp only [add_assoc]
  refine congrArg (z + ·) ?_
  refine congr (congrArg HAdd.hAdd ?_) (congr (congrArg HAdd.hAdd ?_) (congr (congrArg HAdd.hAdd ?_) ?_))
  all_goals refine Finset.sum_congr rfl fun k _ => congrArg f (Fin.ext ?_)
  all_goals (simp [col]; try omega)

end Cert.RowMeanSq

end
-- ==== Proof.LibLaneSum.lean ====
/-
  Three readings at an index, for any extents, at the ideal values.

  * A sum along the lanes of an `[a, b]` array (the second axis dropped, starting from the zero word) read at row `p`
    is the sum over `k < b` of the array at `(p, k)`.
  * An `[a]` array viewed as a column `[a, 1]` reads, at `(p, u)`, the array at `p`; a column `[a, 1]` viewed as `[a]`
    reads, at `p`, the column at `(p, 0)`. (Both casts keep the row-major position.)
  * A load of `n` consecutive columns from column `c` of an `[a, w]` array, all rows, read at `(p, k)` is the array at
    `(p, c + k)`.
-/
import Idealize.ShloMosaic.PureOps.Ideal
import Idealize.ShloMosaic.PureOps.Ideal.Laws
import Idealize.ShloMosaic.Lib.ValueIdx
import Idealize.ShloMosaic.Lib.Pipeline.Value

noncomputable section

namespace Cert.Lib.LaneSum

open Idealize.ShloMosaic Idealize.ShloMosaic.ValueIdx

/-- A lane sum from the zero word, read at row `p`: the sum over the lanes of the entries of that row. -/
theorem laneSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v _ h hφ hacc (ix1 p)).trans ?_
  refine Finset.sum_congr rfl fun k _ => congrArg v (funext fun c => Fin.ext ?_)
  match c with
  | ⟨0, _⟩ => rfl
  | ⟨1, _⟩ => rfl

variable {α : Type}

/-- An `[a]` array as a column `[a, 1]`, at `(p, u)`: the array at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` as an `[a]` array, at `p`: the column at `(p, 0)`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A load of the `n` columns from column `c`, every row, of an `[a, w]` array, at `(p, k)`: the array at `(p, c + k)`. -/
theorem ld_cols_apply {Val : EltTy → Type} {e : EltTy} {a w n : ℕ} (x : (⟨2, ![a, w]⟩ : Shape).Idx → Val e) (c : ℕ)
    (inb : ∀ d, (![0, c] : Fin 2 → ℕ) d + (![a, n] : Fin 2 → ℕ) d ≤ (⟨2, ![a, w]⟩ : Shape).size d)
    (p : Fin a) (k : Fin n) (hk : c + k.val < w) :
    View.ld x (Rect.unit (s := ⟨2, ![a, w]⟩) ![0, c] ![a, n] inb) (ix2 p k) = x (ix2 p ⟨c + k.val, hk⟩) := by
  show x ((Rect.unit (s := ⟨2, ![a, w]⟩) ![0, c] ![a, n] inb).idx (ix2 p k)) = _
  refine congrArg x (funext fun d => Fin.ext ?_)
  match d with
  | ⟨0, _⟩ => show 0 + 1 * p.val = p.val; omega
  | ⟨1, _⟩ => show c + 1 * k.val = c + k.val; omega

end Cert.Lib.LaneSum

end
-- ==== Proof.KernelRow.lean ====
/-
  The kernel's arithmetic on one block, read at a row, at the ideal values.

  For input blocks `x0`, `x1` (512 rows of 4096) the body's vector at row `p` is
      ( (((z + S₀) + S₁) + S₂) + S₃ ) / 4096,   S_q = ∑_{k<1024} (x0 p (1024q+k) − x1 p (1024q+k))²,
  `z` the zero word's value and 4096 the word 0x45800000's: a lane sum read at a row is the sum over the lanes, the
  casts between a vector of 512 and a column of 512 keep the row, and a load of 1024 columns from column `c` reads
  column `c + k`. By the regrouping law that is the block's row formula `blockRowAt`: `z` plus ALL 4096 squared
  differences of the row, over 4096.
-/
import proofs.«175330_j53781580480581_2_alg».proof.Proof.Gen.KernelIdeal.Skeleton
import proofs.«175330_j53781580480581_2_alg».proof.Proof.RowMeanSq
import proofs.«175330_j53781580480581_2_alg».proof.Proof.LibLaneSum

noncomputable section

namespace Cert.KernelRow

open Idealize.ShloMosaic Idealize.ShloMosaic.ValueIdx
open Cert.KernelIdeal Cert.KernelIdeal.Gen
open Cert.Lib.LaneSum
open Cert.RowMeanSq (col chunked_eq)

/-- The squared difference of two blocks of 1024 columns at row `p`, lane `k`. -/
def sq (v w : S512x1024.Idx → EReal) (p : Fin 512) (k : Fin 1024) : EReal :=
  (v (ix2 p k) - w (ix2 p k)) * (v (ix2 p k) - w (ix2 p k))

/-- The squared difference of the two input blocks at row `p`, column `k`. -/
def sqAt (x0 x1 : S512x4096.Idx → EReal) (p : Fin 512) (k : Fin 4096) : EReal :=
  (x0 (ix2 p k) - x1 (ix2 p k)) * (x0 (ix2 p k) - x1 (ix2 p k))

/-- THE BLOCK'S ROW FORMULA: the zero word's value plus the row's 4096 squared differences, over the word 4096.0. -/
def blockRowAt (x0 x1 : S512x4096.Idx → EReal) (p : Fin 512) : EReal :=
  Ideal.div (Ideal.ofBits .f32 0x00000000#32 + ∑ k : Fin 4096, sqAt x0 x1 p k) (Ideal.ofBits .f32 0x45800000#32)

/-- The lane sum of the squared differences of two blocks of 1024 columns, at row `p`. -/
theorem chunk_sum (v w : Vec Ideal S512x1024 .f32) (h : S512x1024.Reduces [1] S512) (hφ : FKind.Formats .f32)
    (hacc : (0x00000000#32 : BitVec 32) = 0x00000000#32) (p : Fin 512) :
    multiReduction (F := Ideal) .add [1] S512 (mulf (subf v w) (subf v w)) 0x00000000#32 h hφ hacc (ix1 p) = ∑ k : Fin 1024, sq v w p k :=
  laneSum_apply (mulf (subf v w) (subf v w)) h hφ hacc p

/-- The partial sums after three pairs of loads, at row `p` of the column of 512. -/
theorem pay2_apply (v4 v6 v15 v17 v26 v28 : Vec Ideal S512x1024 .f32) (p : Fin 512) :
    k0_pay2 (F := Ideal) v4 v6 v15 v17 v26 v28 (ix2 p (0 : Fin 1))
      = Ideal.ofBits .f32 0x00000000#32 + ∑ k : Fin 1024, sq v4 v6 p k + ∑ k : Fin 1024, sq v15 v17 p k
          + ∑ k : Fin 1024, sq v26 v28 p k := by
  unfold k0_pay2
  show ((Ideal.ofBits .f32 0x00000000#32 + shapeCast S512x1 _ _ (ix2 p (0 : Fin 1))) + shapeCast S512x1 _ _ (ix2 p (0 : Fin 1)))
      + shapeCast S512x1 _ _ (ix2 p (0 : Fin 1)) = _
  rw [shapeCast_a_a1_apply, shapeCast_a_a1_apply, shapeCast_a_a1_apply, chunk_sum, chunk_sum, chunk_sum]

/-- The stored vector from the partial sums `v33` and the fourth pair of loads, at row `p`. -/
theorem pay1_apply (v33 : FVec Ideal S512x1 .f32) (v37 v39 : Vec Ideal S512x1024 .f32) (p : Fin 512) :
    k0_pay1 (F := Ideal) v33 v37 v39 (ix1 p)
      = Ideal.div (v33 (ix2 p (0 : Fin 1)) + ∑ k : Fin 1024, sq v37 v39 p k) (Ideal.ofBits .f32 0x45800000#32) := by
  unfold k0_pay1
  show Ideal.div (shapeCast S512 _ _ (ix1 p)) (Ideal.ofBits .f32 0x45800000#32) = _
  rw [shapeCast_a1_a_apply]
  show Ideal.div (v33 (ix2 p (0 : Fin 1)) + shapeCast S512x1 _ _ (ix2 p (0 : Fin 1))) _ = _
  rw [shapeCast_a_a1_apply, chunk_sum]

/-- The squared difference of the loads of block `q` of 1024 columns is that of the input blocks at column `1024 q + k`. -/
theorem sq_ld (x0 x1 : Vec Ideal S512x4096 .f32) (q : Fin 4) (c : ℕ) (hc : c = 1024 * q.val)
    (inb : ∀ d, (![0, c] : Fin 2 → ℕ) d + (![512, 1024] : Fin 2 → ℕ) d ≤ S512x4096.size d) (p : Fin 512) (k : Fin 1024) :
    sq (View.ld x0 (Rect.unit (s := S512x4096) ![0, c] ![512, 1024] inb)) (View.ld x1 (Rect.unit (s := S512x4096) ![0, c] ![512, 1024] inb)) p k
      = sqAt x0 x1 p (col q k) := by
  subst hc
  unfold sq sqAt
  rw [ld_cols_apply x0 _ inb p k (col q k).isLt, ld_cols_apply x1 _ inb p k (col q k).isLt]
  rfl

/-- THE BODY'S VECTOR AT A ROW is the block's row formula. -/
theorem body_row (x0 x1 : Vec Ideal S512x4096 .f32) (p0 p1 p2 p3) (p : Fin 512) :
    k0_pay1 (F := Ideal)
        (k0_pay2 (View.ld x0 (Rect.unit (s := S512x4096) ![0, 0] ![512, 1024] p0)) (View.ld x1 (Rect.unit (s := S512x4096) ![0, 0] ![512, 1024] p0))
          (View.ld x0 (Rect.unit (s := S512x4096) ![0, 1024] ![512, 1024] p1)) (View.ld x1 (Rect.unit (s := S512x4096) ![0, 1024] ![512, 1024] p1))
          (View.ld x0 (Rect.unit (s := S512x4096) ![0, 2048] ![512, 1024] p2)) (View.ld x1 (Rect.unit (s := S512x4096) ![0, 2048] ![512, 1024] p2)))
        (View.ld x0 (Rect.unit (s := S512x4096) ![0, 3072] ![512, 1024] p3)) (View.ld x1 (Rect.unit (s := S512x4096) ![0, 3072] ![512, 1024] p3))
        (ix1 p)
      = blockRowAt x0 x1 p := by
  rw [pay1_apply, pay2_apply]
  simp only [sq_ld x0 x1 0 0 rfl p0 p, sq_ld x0 x1 1 1024 rfl p1 p, sq_ld x0 x1 2 2048 rfl p2 p, sq_ld x0 x1 3 3072 rfl p3 p]
  unfold blockRowAt
  rw [chunked_eq]

end Cert.KernelRow

end
-- ==== Proof.KernelBlocks.lean ====
/-
  From the blocks to the array: after the run, the kernel's row array holds the specification of its two arguments.

  Grid point `t` (of 64) reads rows `512 t … 512 t + 511` of both arguments (all 4096 columns) and writes back the 512
  row values of exactly those rows; every row of the 32768 belongs to the block of the point `row / 512`. So what a
  point writes back is its block of ONE whole-array function, the specification `rowMeanSq` of the two argument
  arrays, and the blocks cover the array: the array ends holding that function.
-/
import proofs.«175330_j53781580480581_2_alg».proof.Proof.Gen.KernelIdeal.Frame
import proofs.«175330_j53781580480581_2_alg».proof.Proof.KernelPiece
import proofs.«175330_j53781580480581_2_alg».proof.Proof.KernelRow
import proofs.«175330_j53781580480581_2_alg».proof.Proof.RowMeanSq
import Idealize.ShloMosaic.Lib.Pipeline.Value

set_option maxRecDepth 16384

noncomputable section

namespace Cert.KernelBlocks

open Idealize.ShloMosaic Idealize.ShloMosaic.TcCoe Idealize.SL.Sem Idealize.ShloMosaic.ValueIdx
open Idealize.ShloMosaic.Pipeline (Dat)
open Cert.KernelIdeal Cert.KernelIdeal.Gen
open Cert.RowMeanSq (rowMeanSq rowAt sqDiff)
open Cert.KernelRow (blockRowAt sqAt)

variable (m : (ℓ : Loc nD τ sig) → Buf (Elt Ideal) ℓ)

/-- 1024 columns from column `c` lie inside the 4096 when `c + 1024 ≤ 4096` (and the 512 rows are all the rows). -/
theorem inbCols (c : ℕ) (hc : c + 1024 ≤ 4096) :
    ∀ d, (![0, c] : Fin 2 → ℕ) d + (![512, 1024] : Fin 2 → ℕ) d ≤ S512x4096.size d :=
  Rect.inb₂ (by show 0 + 512 ≤ 512; omega) (by show c + 1024 ≤ 4096; exact hc)

/-- The printed index maps over the grid: at point `t` both inputs are at block row `t`, block column 0, and the output
    at block `t`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 ∧ win0_2.index t (0 : Fin 1) = t.val :=
  (by decide +kernel : ∀ t : Fin grid0.N, _)

theorem lt64 (t : Fin cfg0.N) : t.val < 64 := Nat.lt_of_lt_of_eq t.isLt N_0

/-- The first argument's block at point `t`, at (p, k): the argument at (512 t + p, k). -/
theorem iblk0_apply (c : Dev nD) (t : Fin cfg0.N) (p : Fin 512) (k : Fin 4096) (r : Fin 32768) (hr : r.val = 512 * t.val + p.val) :
    (iblk m c 0 t : Vec Ideal S512x4096 .f32) (ix2 p k) = V m c main_arg0 (ix2 r k) := by
  obtain ⟨e0, e1, -, -, -⟩ := idx_facts t
  show V m c main_arg0 (((cfg0.win 0).blk t).view.emb (ix2 p k)) = _
  refine congrArg (V m c main_arg0) (funext fun d => Fin.ext ?_)
  match d with
  | ⟨0, _⟩ => show win0_0.index t (0 : Fin 2) * 512 + 1 * p.val = r.val; rw [e0, hr]; omega
  | ⟨1, _⟩ => show win0_0.index t (1 : Fin 2) * 4096 + 1 * k.val = k.val; rw [e1]; omega

/-- The second argument's block likewise. -/
theorem iblk1_apply (c : Dev nD) (t : Fin cfg0.N) (p : Fin 512) (k : Fin 4096) (r : Fin 32768) (hr : r.val = 512 * t.val + p.val) :
    (iblk m c 1 t : Vec Ideal S512x4096 .f32) (ix2 p k) = V m c main_arg1 (ix2 r k) := by
  obtain ⟨-, -, e2, e3, -⟩ := idx_facts t
  show V m c main_arg1 (((cfg0.win 1).blk t).view.emb (ix2 p k)) = _
  refine congrArg (V m c main_arg1) (funext fun d => Fin.ext ?_)
  match d with
  | ⟨0, _⟩ => show win0_1.index t (0 : Fin 2) * 512 + 1 * p.val = r.val; rw [e2, hr]; omega
  | ⟨1, _⟩ => show win0_1.index t (1 : Fin 2) * 4096 + 1 * k.val = k.val; rw [e3]; omega

/-- A block's row formula on blocks that are rows of two arrays is the arrays' row value. -/
theorem blockRow_eq (A0 A1 : S32768x4096.Idx → EReal) (x0 x1 : S512x4096.Idx → EReal) (r : Fin 32768) (p : Fin 512)
    (h0 : ∀ k : Fin 4096, x0 (ix2 p k) = A0 (ix2 r k)) (h1 : ∀ k : Fin 4096, x1 (ix2 p k) = A1 (ix2 r k)) :
    blockRowAt x0 x1 p = rowAt A0 A1 r := by
  unfold blockRowAt rowAt
  refine congrArg (fun s => Ideal.div (_ + s) _) (Finset.sum_congr rfl fun k _ => ?_)
  unfold sqAt sqDiff
  rw [h0 k, h1 k]

/-- A vector of 512 whose entry `p` is `G` at row `512 t + p` is, written back at point `t`, block `t` of `G`. -/
theorem out_block (t : Fin cfg0.N) (Y : Vec Ideal S512 .f32) (G : S32768.Idx → EReal)
    (h : ∀ (p : Fin 512) (r : Fin 32768), r.val = 512 * t.val + p.val → Y (ix1 p) = G (ix1 r)) :
    (cfg0.win 2).cut (grid0.coords t) Y = ((cfg0.win 2).blk t).view.read (Elt Ideal) G := by
  obtain ⟨-, -, -, -, e4⟩ := idx_facts t
  have ht := lt64 t
  funext j
  have hj : (j 0).val < 512 := (j 0).isLt
  show Y j = G (((cfg0.win 2).blk t).view.emb j)
  have hjp : j = ix1 (⟨(j 0).val, hj⟩ : Fin 512) := funext fun d => by match d with | ⟨0, _⟩ => rfl
  have hr : ((cfg0.win 2).blk t).view.emb j = ix1 (⟨512 * t.val + (j 0).val, by omega⟩ : Fin 32768) := by
    funext d; apply Fin.ext
    match d with
    | ⟨0, _⟩ => show win0_2.index t (0 : Fin 1) * 512 + 1 * (j 0).val = 512 * t.val + (j 0).val; rw [e4]; omega
  rw [hr]
  exact (congrArg Y hjp).trans (h _ _ rfl)

/-- WHAT POINT `t` WRITES BACK is block `t` of the specification of the two argument arrays as the region finds them. -/
theorem flushed_eq (c : Dev nD) (t : Fin cfg0.N) :
    (dats m 0 c).flushed 2 t
      = ((cfg0.win 2).blk t).view.read (Elt Ideal) (rowMeanSq (V m c main_arg0) (V m c main_arg1)) := by
  show (cfg0.win 2).cut (grid0.coords t) ((dats m 0 c).after 2 t) = _
  rw [after0_2]
  unfold outsAt0
  rw [Cert.KernelPiece.out_eq c (grid0.coords t) (ms0_0 t) (hs0_0 t) (ms0_1 t) (hs0_1 t) (ms0_2 t) (hs0_2 t) (iblk m c 0 t) (iblk m c 1 t)
    (inbCols 0 (by omega)) (inbCols 1024 (by omega)) (inbCols 2048 (by omega)) (inbCols 3072 (by omega))]
  refine out_block t _ _ fun p r hr => ?_
  refine (Cert.KernelRow.body_row (iblk m c 0 t) (iblk m c 1 t) (inbCols 0 (by omega)) (inbCols 1024 (by omega))
    (inbCols 2048 (by omega)) (inbCols 3072 (by omega)) p).trans ?_
  exact blockRow_eq (V m c main_arg0) (V m c main_arg1) _ _ r p (fun k => iblk0_apply m c t p k r hr) (fun k => iblk1_apply m c t p k r hr)

/-- A row is in point `t`'s block iff it lies in `[512 t, 512 t + 512)`. -/
theorem mem_blk (t : Fin cfg0.N) (i : S32768.Idx) :
    i ∈ ((cfg0.win 2).blk t).view.set
      ↔ ∀ a : Fin 1, win0_2.index t a * S512.size a ≤ (i a).val ∧ (i a).val < win0_2.index t a * S512.size a + S512.size a := by
  show i ∈ ((View.whole main_v0).slice (win0_2.rect t)).set ↔ _
  rw [View.set_slice_whole, Rect.mem_set_unit]
  exact Iff.rfl

/-- Every row is in the block of the point `row / 512`, which writes back. -/
theorem cover (i : S32768.Idx) : ∃ t : Fin cfg0.N, (cfg0.win 2).flush t = true ∧ i ∈ ((cfg0.win 2).blk t).view.set := by
  have hi : (i 0).val < 32768 := (i 0).isLt
  have hN : cfg0.N = 64 := N_0
  have ht : (i 0).val / 512 < cfg0.N := by rw [hN]; omega
  obtain ⟨-, -, -, -, e4⟩ := idx_facts ⟨(i 0).val / 512, ht⟩
  refine ⟨⟨(i 0).val / 512, ht⟩, flush0_2 _, ?_⟩
  rw [mem_blk]
  intro a
  match a with
  | ⟨0, _⟩ =>
    show win0_2.index ⟨(i 0).val / 512, ht⟩ (0 : Fin 1) * 512 ≤ (i 0).val
      ∧ (i 0).val < win0_2.index ⟨(i 0).val / 512, ht⟩ (0 : Fin 1) * 512 + 512
    rw [e4]
    show (i 0).val / 512 * 512 ≤ (i 0).val ∧ (i 0).val < (i 0).val / 512 * 512 + 512
    omega

/-- THE ARRAY AFTER THE RUN: the specification of the two argument arrays as the region finds them. -/
theorem final (c : Dev nD) : (dats m 0 c).arrAt 2 cfg0.N = rowMeanSq (V m c main_arg0) (V m c main_arg1) :=
  (dats m 0 c).arrAt_eq_of_cover 2 _ (fun t _ => flushed_eq m c t) cover

end Cert.KernelBlocks

end
-- ==== Proof.WelfordTail.lean ====
/-
  What both programs do with the 32768 row values: a batched Welford merge, then a normalisation.

  Given one value per row, `r`, and the running statistics `count`, `mean`, `M2` (three scalars), with n the
  value of the f32 word 0x47000000 (32768.0) and ε the value of the word 0x322BCC77:

      batch mean      μ  = (0 + Σ r) / n
      batch M2        s  = 0 + Σ (r − μ)·(r − μ)
      new count       c' = count + n
      difference      δ  = μ − mean
      new mean        m' = mean + δ·n / c'
      new M2          S' = (M2 + s) + ((δ·δ)·count)·n / c'
      variance        v  = S' / max (c' − 1) 1
      deviation       σ  = 1 if c' < 2, else sqrt v + ε
      result          λ · (r − m') / (σ + ε),         λ the value of the word 0x3C23D70A.

  The operations are the host's, in the order and with the words both programs print; nothing below opens them. The
  two programs are compared by showing the row values going in are equal: the tail is carried as ONE function.
  The three shape facts the operations ask for (a row array sums to a scalar; a scalar has an element; a scalar
  broadcasts over the rows) are hypotheses, so that either program's own witnesses of them can be supplied.
-/
import Idealize.ShloMosaic.PureOps.Ideal
import Idealize.ShloMosaic.Lib.Pipeline.Value

noncomputable section

namespace Cert.WelfordTail

open Idealize.ShloMosaic

variable {F : FTy → Type} [FloatOps F]

/-- One value per row; a scalar. -/
abbrev Rows : Shape := ⟨1, ![32768]⟩
abbrev Scal : Shape := ⟨0, ![]⟩

abbrev RowVals (F : FTy → Type) [FloatOps F] := (⟨Rows, .f32⟩ : BufTy).Contents (Elt F)
abbrev ScalVal (F : FTy → Type) [FloatOps F] := (⟨Scal, .f32⟩ : BufTy).Contents (Elt F)

section
variable (hr : Rows.ReducesTo [0] Scal) (hs : 0 < Scal.numel) (hb : Scal.BroadcastsInDim Rows (![] : Fin 0 → Fin Rows.rank))

/-- A scalar spread over the rows. -/
def spread (x : ScalVal F) : RowVals F := broadcastInDim Rows ![] hb x

/-- The batch mean: the sum of the row values from zero, over n. -/
def batchMean (r : RowVals F) : ScalVal F :=
  Host.divf (Host.reduceAdd r (constant Scal .f32 0x00000000#32) hr hs) (constant Scal .f32 0x47000000#32)

/-- The row values less the batch mean. -/
def centred (r : RowVals F) : RowVals F := subf r (spread hb (batchMean hr hs r))

/-- The batch M2: the sum from zero of the squared centred values. -/
def batchM2 (r : RowVals F) : ScalVal F :=
  Host.reduceAdd (mulf (centred hr hs hb r) (centred hr hs hb r)) (constant Scal .f32 0x00000000#32) hr hs

/-- The new count. -/
def newCount (count : ScalVal F) : ScalVal F := addf count (constant Scal .f32 0x47000000#32)

/-- The batch mean less the running mean. -/
def delta (r : RowVals F) (mean : ScalVal F) : ScalVal F := subf (batchMean hr hs r) mean

/-- The new mean. -/
def newMean (r : RowVals F) (count mean : ScalVal F) : ScalVal F :=
  addf mean (Host.divf (mulf (delta hr hs r mean) (constant Scal .f32 0x47000000#32)) (newCount count))

/-- The new M2. -/
def newM2 (r : RowVals F) (count mean m2 : ScalVal F) : ScalVal F :=
  addf (addf m2 (batchM2 hr hs hb r))
    (Host.divf (mulf (mulf (mulf (delta hr hs r mean) (delta hr hs r mean)) count) (constant Scal .f32 0x47000000#32)) (newCount count))

/-- The variance: the new M2 over the larger of the new count less one, and one. -/
def variance (r : RowVals F) (count mean m2 : ScalVal F) : ScalVal F :=
  Host.divf (newM2 hr hs hb r count mean m2)
    (maximumf (subf (newCount count) (constant Scal .f32 0x3F800000#32)) (constant Scal .f32 0x3F800000#32))

/-- The deviation: one while the new count is below two, else the variance's root plus ε. -/
def deviation (r : RowVals F) (count mean m2 : ScalVal F) : ScalVal F :=
  select (cmpf .olt (newCount count) (constant Scal .f32 0x40000000#32)) (id (constant Scal .f32 0x3F800000#32))
    (addf (Host.sqrt (variance hr hs hb r count mean m2)) (constant Scal .f32 0x322BCC77#32))

/-- THE TAIL: λ times the row values less the new mean, over the deviation plus ε. -/
def tail (r : RowVals F) (count mean m2 : ScalVal F) : RowVals F :=
  mulf (spread hb (constant Scal .f32 0x3C23D70A#32))
    (Host.divf (subf r (spread hb (newMean hr hs r count mean)))
      (spread hb (addf (deviation hr hs hb r count mean m2) (constant Scal .f32 0x322BCC77#32))))

end

end Cert.WelfordTail

end
-- ==== Proof.KernelRun.lean ====
/-
  The kernel's program, read: its result array is the shared tail applied to the specification's row values.

  After the region the program runs the tail's operations on the region's row array and the three scalar arguments.
  Whatever the buffers hold when those operations start, the result buffer ends at the tail of what the row array
  and the three scalars held (`tail_after`: each operation's result read off in order). When they start the row array
  holds the specification of the first two arguments (the blocks-to-array step) and the scalars are as launched,
  no operation before having written them. Hence the run: the result at the tail of the specification, the
  arguments unchanged.
-/
import proofs.«175330_j53781580480581_2_alg».proof.Proof.Gen.KernelIdeal.Frame
import proofs.«175330_j53781580480581_2_alg».proof.Proof.KernelBlocks
import proofs.«175330_j53781580480581_2_alg».proof.Proof.WelfordTail
import Idealize.ShloMosaic.Lib.StableHlo.Run
import Idealize.ShloMosaic.Lib.Pipeline.Value

set_option maxRecDepth 16384

noncomputable section

namespace Cert.KernelRun

open Idealize.ShloMosaic Idealize.ShloMosaic.TcCoe Idealize.SL.Sem Idealize.ShloMosaic.StableHlo
open Idealize.ShloMosaic.Pipeline (Dat)
open Cert.KernelIdeal Cert.KernelIdeal.Gen
open Cert.RowMeanSq (rowMeanSq)

set_option maxHeartbeats 2000000 in
/-- The tail's operations, run from ANY buffer contents `X`, leave in the result buffer the tail of what `X` holds in
    the row array and the three scalar arguments. -/
theorem tail_after {F : FTy → Type} [FloatOps F] (X : Valuation τ sig (Elt F)) :
    StableHlo.after (List.flatten [hostOps1 (F := F), hostOps1_1, hostOps1_2]) X (Proc.devRef .tc main_v31)
      = Cert.WelfordTail.tail reducesTo_S32768_S_d0 h_S_ bcast_S_S32768 (X (Proc.devRef .tc main_v0))
          (X (Proc.devRef .tc main_arg2)) (X (Proc.devRef .tc main_arg3)) (X (Proc.devRef .tc main_arg4)) := by
  simp only [hostOps1, hostOps1_1, hostOps1_2, List.flatten_cons, List.flatten_nil, List.append_nil, List.cons_append,
    List.nil_append]
  after_results_simp
  rfl

variable (m : (ℓ : Loc nD τ sig) → Buf (Elt Ideal) ℓ) (ρ : Dev nD → PrngReg)

/-- THE KERNEL'S RESULT: the tail of the specification's row values of the first two arguments, and the last three. -/
theorem result_eq (c : Dev nD) :
    Pipeline.afterTail₀ cfgs (dats m) 0 (V0 m) [hostOps1, hostOps1_1, hostOps1_2] c main_v31
      = Cert.WelfordTail.tail reducesTo_S32768_S_d0 h_S_ bcast_S_S32768
          (rowMeanSq (m ((c.tc : Thread nD τ).loc main_arg0)) (m ((c.tc : Thread nD τ).loc main_arg1)))
          (m ((c.tc : Thread nD τ).loc main_arg2)) (m ((c.tc : Thread nD τ).loc main_arg3)) (m ((c.tc : Thread nD τ).loc main_arg4)) := by
  unfold Pipeline.afterTail₀
  refine (tail_after _).trans ?_
  have e0 := (Pipeline.withArrays_arr spec0 launch0.win.arr_inj c (V0 m c) (fun w => (dats m 0 c).arrAt w cfg0.N) 2).trans
    (Cert.KernelBlocks.final m c)
  have e2 := Pipeline.withArrays_of_ne spec0 c (V0 m c) (fun w => (dats m 0 c).arrAt w cfg0.N) main_arg2
    (by exact (by decide : ∀ w, Pipeline.arrRef spec0 w ≠ main_arg2))
  have e3 := Pipeline.withArrays_of_ne spec0 c (V0 m c) (fun w => (dats m 0 c).arrAt w cfg0.N) main_arg3
    (by exact (by decide : ∀ w, Pipeline.arrRef spec0 w ≠ main_arg3))
  have e4 := Pipeline.withArrays_of_ne spec0 c (V0 m c) (fun w => (dats m 0 c).arrAt w cfg0.N) main_arg4
    (by exact (by decide : ∀ w, Pipeline.arrRef spec0 w ≠ main_arg4))
  rw [e0, e2, e3, e4]
  rfl

/-- THE RUN, READ: every weakly fair execution terminates with the result array at the tail of the specification of
    the arguments, and the arguments unchanged. -/
theorem run : θ_run defs (onTc (τ := τ) (main (F := Ideal))) ⟨m, fun _ => 0, ρ⟩ fun r => ∀ c : Dev nD,
      r.2.mem ((c.tc : Thread nD τ).loc main_v31)
        = Cert.WelfordTail.tail reducesTo_S32768_S_d0 h_S_ bcast_S_S32768
            (rowMeanSq (m ((c.tc : Thread nD τ).loc main_arg0)) (m ((c.tc : Thread nD τ).loc main_arg1)))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v31 (Pipeline.mem_restRefs_of main_v31 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelRun

end
-- ==== Proof.RefSide.lean ====
/-
  The reference, read: its result array is the shared tail applied to the row means of squares.

  The reference computes, for every row, the squared differences of the two arguments, their sum from the zero word
  over the 4096 columns (one host reduction), and the quotient by the word 4096.0; then the tail. Read at an index,
  the row stage is `rowAt` of the specification (`rows_eq`): the host's sum at the extended reals is the initial value
  plus the sum over the dropped axis, and the index it reads, (row, k), is the specification's. The stages after it
  are the tail's operations in the tail's order (`stages_eq`, by unfolding names only).
-/
import proofs.«175330_j53781580480581_2_alg».proof.Proof.Gen.ReferenceIdeal.Read
import proofs.«175330_j53781580480581_2_alg».proof.Proof.RowMeanSq
import proofs.«175330_j53781580480581_2_alg».proof.Proof.WelfordTail

noncomputable section

namespace Cert.RefSide

open Idealize.ShloMosaic Idealize.ShloMosaic.TcCoe Idealize.SL.Sem Idealize.ShloMosaic.ValueIdx
open Cert.ReferenceIdeal Cert.ReferenceIdeal.Gen Cert.ReferenceIdeal.Read
open Cert.RowMeanSq (rowMeanSq rowAt sqDiff)

/-- The reference's row stage is the specification: at row `i`, the zero word's value plus the sum over the columns of
    the squared differences, over the word 4096.0. -/
theorem rows_eq (x0 x1 : (⟨S32768x4096, .f32⟩ : BufTy).Contents (Elt Ideal)) :
    val_main_v4 (F := Ideal) x0 x1 = rowMeanSq x0 x1 := by
  funext i
  have hidx : ∀ k : Fin 4096, idx_main_v2 i k = ix2 (i 0) k := fun k =>
    funext fun a => Fin.ext (by match a with | ⟨0, _⟩ => rfl | ⟨1, _⟩ => rfl)
  rw [val_main_v4_apply, val_main_v2_apply, val_main_v3_apply]
  simp only [val_main_cst_apply, val_main_cst_0_apply, val_main_v1_apply, val_main_v0_apply, hidx,
    Ideal.hostDivf_def, Ideal.mulf_def, Ideal.subf_def, Ideal.ofBits_def]
  rfl

/-- The stages after the row stage are the tail, applied to it and to the three scalars. -/
theorem stages_eq {F : FTy → Type} [FloatOps F] (x0 x1 : (⟨S32768x4096, .f32⟩ : BufTy).Contents (Elt F))
    (x2 x3 x4 : (⟨S_, .f32⟩ : BufTy).Contents (Elt F)) :
    val_main_v35 (F := F) x0 x1 x2 x3 x4
      = Cert.WelfordTail.tail reducesTo_S32768_S_d0 h_S_ bcast_S_S32768 (val_main_v4 (F := F) x0 x1) x2 x3 x4 := rfl

/-- THE REFERENCE'S RESULT: the tail of the specification's row values of the first two arguments, and the last three. -/
theorem result_eq (m : (ℓ : Loc nD τ sig) → Buf (Elt Ideal) ℓ) (c : Dev nD) :
    Cert.ReferenceIdeal.Value.res_main_v35 (F := Ideal) m c
      = Cert.WelfordTail.tail reducesTo_S32768_S_d0 h_S_ bcast_S_S32768
          (rowMeanSq (m ((c.tc : Thread nD τ).loc main_arg0)) (m ((c.tc : Thread nD τ).loc main_arg1)))
          (m ((c.tc : Thread nD τ).loc main_arg2)) (m ((c.tc : Thread nD τ).loc main_arg3)) (m ((c.tc : Thread nD τ).loc main_arg4)) := by
  rw [val_main_v35_eq, stages_eq, rows_eq]

end Cert.RefSide

end
-- ==== Proof.lean ====
/-
  Row-wise mean squared error, then a batched Welford merge and a normalisation: the kernel's program against its
  jnp reference, over the extended reals.

  Both programs take two arrays of 32768 rows by 4096 columns and three scalars (count, mean, M2), and return one
  value per row. Each first forms, for every row r,
        rowval r = ( 0 + ∑ₖ (a r k − b r k)² ) / 4096,
  and then applies the SAME operations to the 32768 row values and the three scalars: the batch mean and M2 of the row
  values, the merged count, mean and M2, a variance and deviation with their guards, and finally
  λ·(rowval − new mean)/(deviation + ε) — the tail, carried through the proof as one function and never opened.

  They differ only in how a row's 4096 squared differences are added. The reference adds them in one sum. The kernel
  works on blocks of 512 rows (64 grid points), and within a block adds four consecutive groups of 1024 columns, one
  after the other, onto zero, before dividing by the same 4096. Addition of extended reals is associative and
  commutative, so the two sums agree on every input, finite or not; the division is one and the same operation on both
  sides. That is the whole of the algebraic claim, and why it needs no appeal to the precondition.

  The frames of the two kernel programs are the generated ones; the reference's frame is its generated run with the
  result forgotten. The idealization rewrote no operation, so there is nothing to preserve beyond `True`.
-/
import proofs.«175330_j53781580480581_2_alg».proof.Defs
import proofs.«175330_j53781580480581_2_alg».proof.Proof.Gen.Kernel
import proofs.«175330_j53781580480581_2_alg».proof.Proof.Gen.Kernel.Skeleton
import proofs.«175330_j53781580480581_2_alg».proof.Proof.Gen.Kernel.Launch
import proofs.«175330_j53781580480581_2_alg».proof.Proof.Gen.Kernel.Points
import proofs.«175330_j53781580480581_2_alg».proof.Proof.Gen.Kernel.Frame
import proofs.«175330_j53781580480581_2_alg».proof.Proof.Gen.KernelIdeal
import proofs.«175330_j53781580480581_2_alg».proof.Proof.Gen.KernelIdeal.Skeleton
import proofs.«175330_j53781580480581_2_alg».proof.Proof.Gen.KernelIdeal.Launch
import proofs.«175330_j53781580480581_2_alg».proof.Proof.Gen.KernelIdeal.Points
import proofs.«175330_j53781580480581_2_alg».proof.Proof.Gen.KernelIdeal.Frame
import proofs.«175330_j53781580480581_2_alg».proof.Proof.Gen.ReferenceIdeal
import proofs.«175330_j53781580480581_2_alg».proof.Proof.Gen.ReferenceIdeal.Run
import proofs.«175330_j53781580480581_2_alg».proof.Proof.Gen.ReferenceIdeal.Read
import proofs.«175330_j53781580480581_2_alg».proof.Proof.Gen.Pre_finite_inputs
import proofs.«175330_j53781580480581_2_alg».proof.Proof.KernelRun
import proofs.«175330_j53781580480581_2_alg».proof.Proof.RefSide
import Idealize.ShloMosaic.Adequacy
import Idealize.ShloMosaic.Init

noncomputable section

namespace Cert.Proof

open Idealize.ShloMosaic Idealize.SL.Sem

/-- The word-level kernel program runs, faults nowhere, and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the five arguments, both programs end with the tail of the row means of squares of
    the first two arguments and the last three: the kernel's by its blocks and the regrouping of each row's sum, the
    reference's by reading its operations in order. -/
theorem algebraic : Cert.algebraic_KernelIdeal_ReferenceIdeal := by
  intro m ρ m' ρ' _ hagree
  refine ⟨_, Cert.KernelRun.run m ρ, ?_⟩
  refine (θ_run Cert.ReferenceIdeal.defs _ _).mono (fun _ h c => ⟨?_, (h c).2⟩)
    (Cert.ReferenceIdeal.Value.run (F := Ideal) m' ρ')
  rw [(h c).1, Cert.RefSide.result_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
